-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn_part1 {F : FTy → Type} [FloatOps F] (main_arg4 : FVec F S12288 .f32) (main_arg5 : FVec F S12288 .f32) (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288 .f32 := Host.absf main_arg5
  let main_cst_8 : FVec F S_ .f32 := constant S_ .f32 0x7F800000#32
  let main_v25 : FVec F S12288 .f32 := broadcastInDim S12288 ![] bcast_S_S12288 main_cst_8
  let main_v26 : IVec S12288 1 := cmpf .olt main_v24 main_v25
  let main_c_9 : IVec S_ 1 := constantI S_ 1 1#1
  let main_v27 : IVec S_ 1 := (fun x v => Host.reduce IntOp.andi x v reducesTo_S12288_S_d0 h_S_) main_v26 main_c_9
  let main_v28 : IVec S_ 1 := andi main_v23 main_v27
  main_v28

def fn {F : FTy → Type} [FloatOps F] (main_arg0 : FVec F S12288 .f32) (main_arg1 : FVec F S12288 .f32) (main_arg2 : FVec F S12288 .f32) (main_arg3 : FVec F S12288 .f32) (main_arg4 : FVec F S12288 .f32) (main_arg5 : FVec F S12288 .f32) : IVec S_ 1 :=
  let main_v0 : FVec F S12288 .f32 := Host.absf main_arg0
  let main_cst : FVec F S_ .f32 := constant S_ .f32 0x7F800000#32
  let main_v1 : FVec F S12288 .f32 := broadcastInDim S12288 ![] bcast_S_S12288 main_cst
  let main_v2 : IVec S12288 1 := cmpf .olt main_v0 main_v1
  let main_c : IVec S_ 1 := constantI S_ 1 1#1
  let main_v3 : IVec S_ 1 := (fun x v => Host.reduce IntOp.andi x v reducesTo_S12288_S_d0 h_S_) main_v2 main_c
  let main_v4 : FVec F S12288 .f32 := Host.absf main_arg1
  let main_cst_0 : FVec F S_ .f32 := constant S_ .f32 0x7F800000#32
  let main_v5 : FVec F S12288 .f32 := broadcastInDim S12288 ![] bcast_S_S12288 main_cst_0
  let main_v6 : IVec S12288 1 := cmpf .olt main_v4 main_v5
  let main_c_1 : IVec S_ 1 := constantI S_ 1 1#1
  let main_v7 : IVec S_ 1 := (fun x v => Host.reduce IntOp.andi x v reducesTo_S12288_S_d0 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S12288 .f32 := Host.absf main_arg3
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_arg4 main_arg5 main_v13 main_v16
-- ==== Kernel.lean ====
abbrev S12288 : Shape := ⟨1, ![12288]⟩
abbrev S12288x12288 : Shape := ⟨2, ![12288, 12288]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 7
  | .vmem => 14
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S12288, .f32⟩
  | .hbm, ⟨3, _⟩ => ⟨S12288, .f32⟩
  | .hbm, ⟨4, _⟩ => ⟨S12288, .f32⟩
  | .hbm, ⟨5, _⟩ => ⟨S12288, .f32⟩
  | .hbm, ⟨6, _⟩ => ⟨S12288x12288, .f32⟩
  | .local _ .vmem, ⟨0, _⟩ => ⟨S2048, .f32⟩
  | .local _ .vmem, ⟨1, _⟩ => ⟨S2048, .f32⟩
  | .local _ .vmem, ⟨2, _⟩ => ⟨S2048, .f32⟩
  | .local _ .vmem, ⟨3, _⟩ => ⟨S2048, .f32⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S2048x2048, .f32⟩
  | .local _ .vmem, ⟨13, _⟩ => ⟨S2048x2048, .f32⟩
  | _, _ => ⟨S12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S2048x2048_S2048x2048_0_0 : ∀ a, (![0, 0] : Fin 2 → Nat) a + S2048x2048.size a ≤ S2048x2048.size a
  h_S2048x2048 : 0 < S2048x2048.numel
  inb_S2048_S2048_0 : ∀ a, (![0] : Fin 1 → Nat) a + S2048.size a ≤ S2048.size a
  h_S2048 : 0 < S2048.numel
  iota_S2048x2048_d0_w32 : S2048x2048.Iotas .tc 32 [0]
  iota_S2048x2048_d1_w32 : S2048x2048.Iotas .tc 32 [1]
  shapeCasts_S2048_S1x2048 : S2048.ShapeCasts S1x2048
  shapeCasts_S1x2048_S1x2048 : S1x2048.ShapeCasts S1x2048
  broadcasts_S1x2048_S2048x2048 : S1x2048.Broadcasts S2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S12288.size a
  hwx0_0 : ∀ i : grid0.Coords, EltTy.bits .f32 = 32 ∨ (Rect.block (s := S12288) S2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S12288.size a
  hwx0_1 : ∀ i : grid0.Coords, EltTy.bits .f32 = 32 ∨ (Rect.block (s := S12288) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S12288.size a
  hwx0_2 : ∀ i : grid0.Coords, EltTy.bits .f32 = 32 ∨ (Rect.block (s := S12288) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S12288.size a
  hwx0_3 : ∀ i : grid0.Coords, EltTy.bits .f32 = 32 ∨ (Rect.block (s := S12288) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S12288.size a
  hwx0_4 : ∀ i : grid0.Coords, EltTy.bits .f32 = 32 ∨ (Rect.block (s := S12288) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S12288.size a
  hwx0_5 : ∀ i : grid0.Coords, EltTy.bits .f32 = 32 ∨ (Rect.block (s := S12288) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S12288x12288.size a
  hwx0_6 : ∀ i : grid0.Coords, EltTy.bits .f32 = 32 ∨ (Rect.block (s := S12288x12288) S2048x2048.size (cc0_transform_6 i) (hinb0_6 i)).WholeWords (EltTy.packing .f32)

variable [Facts₀]

abbrev win0_0 : Pipeline.Window sig grid0 :=
  Pipeline.Window.ofSpec (Memref.whole main_arg0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2048x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S12288 : Shape := ⟨1, ![12288]⟩
abbrev S_ : Shape := ⟨0, ![]⟩
abbrev S12288x12288 : Shape := ⟨2, ![12288, 12288]⟩
abbrev S12288x1 : Shape := ⟨2, ![12288, 1]⟩

abbrev nBuf : Space → Nat
  | .hbm => 25
  | .vmem => 0
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S12288, .f32⟩
  | .hbm, ⟨3, _⟩ => ⟨S12288, .f32⟩
  | .hbm, ⟨4, _⟩ => ⟨S12288, .f32⟩
  | .hbm, ⟨5, _⟩ => ⟨S12288, .f32⟩
  | .hbm, ⟨6, _⟩ => ⟨S12288, .f32⟩
  | .hbm, ⟨7, _⟩ => ⟨S12288, .f32⟩
  | .hbm, ⟨8, _⟩ => ⟨S12288, .f32⟩
  | .hbm, ⟨9, _⟩ => ⟨S12288, .f32⟩
  | .hbm, ⟨10, _⟩ => ⟨S12288, .f32⟩
  | .hbm, ⟨11, _⟩ => ⟨S12288, .f32⟩
  | .hbm, ⟨12, _⟩ => ⟨S_, .f32⟩
  | .hbm, ⟨13, _⟩ => ⟨S12288, .f32⟩
  | .hbm, ⟨14, _⟩ => ⟨S12288x12288, .i32⟩
  | .hbm, ⟨15, _⟩ => ⟨S12288x12288, .i32⟩
  | .hbm, ⟨16, _⟩ => ⟨S_, .i32⟩
  | .hbm, ⟨17, _⟩ => ⟨S12288x12288, .i32⟩
  | .hbm, ⟨18, _⟩ => ⟨S12288x12288, .i32⟩
  | .hbm, ⟨19, _⟩ => ⟨S12288x12288, .i1⟩
  | .hbm, ⟨20, _⟩ => ⟨S12288x1, .f32⟩
  | .hbm, ⟨21, _⟩ => ⟨S_, .f32⟩
  | .hbm, ⟨22, _⟩ => ⟨S12288x12288, .f32⟩
  | .hbm, ⟨23, _⟩ => ⟨S12288x12288, .f32⟩
  | .hbm, ⟨24, _⟩ => ⟨S12288x12288, .f32⟩
  | _, _ => ⟨S12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  pads_S12288_S12288_000 : S12288.Pads (![0] : Fin 1 → Nat) ![0] ![0] S12288
  h_S_ : 0 < S_.numel
  bcast_S_S12288x12288 : S_.BroadcastsInDim S12288x12288 (![] : Fin 0 → Fin S12288x12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)

variable [Facts₀]

class Facts : Prop extends Facts₀ where

variable [Facts]
-- ==== Proof.KernelPieces.lean ====
/-
  What the kernel body leaves in the output tile, in each of its two cases.

  The body first stores a zero tile over the whole output block. Off the diagonal of the grid nothing else is stored,
  so the block holds the zero tile. On the diagonal of the grid a second store covers the whole block again with the
  select between the fused vector laid along every row and zero, so the block holds that second payload: the last
  covering store wins.
-/
import proofs.«125487_j64776696758819_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- Off the grid's diagonal the output block holds the zero tile. -/
theorem out_B (c : Dev nD) (i : grid0.Coords) (a2 : Memref sig .tc .vmem S2048 .f32) (h2 : a2.IsWhole) (a3 : Memref sig .tc .vmem S2048 .f32) (h3 : a3.IsWhole) (a4 : Memref sig .tc .vmem S2048 .f32) (h4 : a4.IsWhole) (a5 : Memref sig .tc .vmem S2048 .f32) (h5 : a5.IsWhole) (a6 : Memref sig .tc .vmem S2048 .f32) (h6 : a6.IsWhole) (a7 : Memref sig .tc .vmem S2048 .f32) (h7 : a7.IsWhole) (a8 : Memref sig .tc .vmem S2048x2048 .f32) (h8 : a8.IsWhole) (hc : ¬cond0_0 i) (x0 x1 x2 x3 x4 x5 : Vec F S2048 .f32) :
    out0_B_6 c i a2 h2 a3 h3 a4 h4 a5 h5 a6 h6 a7 h7 a8 h8 hc x0 x1 x2 x3 x4 x5 = k0_pay1 := by
  unfold out0_B_6
  rw [View.read_writes_eq_canon _ _ _ (cover0_B_6 c i a2 h2 a3 h3 a4 h4 a5 h5 a6 h6 a7 h7 a8 h8 hc x0 x1 x2 x3 x4 x5)]
  unfold kernelRun0_B
  dsimp only
  rw [View.canon_unit_zero hz2]

/-- On the grid's diagonal the output block holds the second store's payload, of the six input blocks. -/
theorem out_A (c : Dev nD) (i : grid0.Coords) (a2 : Memref sig .tc .vmem S2048 .f32) (h2 : a2.IsWhole) (a3 : Memref sig .tc .vmem S2048 .f32) (h3 : a3.IsWhole) (a4 : Memref sig .tc .vmem S2048 .f32) (h4 : a4.IsWhole) (a5 : Memref sig .tc .vmem S2048 .f32) (h5 : a5.IsWhole) (a6 : Memref sig .tc .vmem S2048 .f32) (h6 : a6.IsWhole) (a7 : Memref sig .tc .vmem S2048 .f32) (h7 : a7.IsWhole) (a8 : Memref sig .tc .vmem S2048x2048 .f32) (h8 : a8.IsWhole) (hc : cond0_0 i) (x0 x1 x2 x3 x4 x5 : Vec F S2048 .f32) :
    out0_A_6 c i a2 h2 a3 h3 a4 h4 a5 h5 a6 h6 a7 h7 a8 h8 hc x0 x1 x2 x3 x4 x5 = k0_pay2 x0 x2 x3 x1 x4 x5 := by
  unfold out0_A_6
  rw [View.read_writes_eq_canon _ _ _ (cover0_A_6 c i a2 h2 a3 h3 a4 h4 a5 h5 a6 h6 a7 h7 a8 h8 hc x0 x1 x2 x3 x4 x5)]
  unfold kernelRun0_A
  dsimp only
  rw [View.canon_cons_unit_zero (S := S2048x2048) hz2]
  simp only [View.readAt_eq_ld, h2.read_unread, h3.read_unread, h4.read_unread, h5.read_unread, h6.read_unread,
    h7.read_unread, View.ld_unit_zero (S := S2048) hz1]

end Cert.KernelIdeal.Pieces

end
-- ==== Proof.DiagSpec.lean ====
/-
  The diagonal matrix of a fused vector, index by index over the extended reals.

  From six vectors of 12288 entries form d k = (-p k) * rm k + ic k + t k * vw k + vc k. The matrix in question has
  d r at (r, r) and zero off the diagonal. Both programs decide "on the diagonal" by comparing two 32-bit iota words
  for equality; the coordinates are far below 2^32, so the words are equal exactly when the coordinates are.
-/
import Idealize.ShloMosaic.PureOps.Ideal
import Idealize.ShloMosaic.Lib.ValueIdx

noncomputable section

namespace Cert.DiagSpec

open Idealize.ShloMosaic Idealize.ShloMosaic.ValueIdx

/-- Entry `k` of the fused vector. -/
def entry (p t rm ic vw vc : (⟨1, ![12288]⟩ : Shape).Idx → EReal) (k : Fin 12288) : EReal :=
  -(p (ix1 k)) * rm (ix1 k) + ic (ix1 k) + t (ix1 k) * vw (ix1 k) + vc (ix1 k)

/-- Entry `(r, c)` of its diagonal matrix. -/
def diagAt (p t rm ic vw vc : (⟨1, ![12288]⟩ : Shape).Idx → EReal) (r c : Fin 12288) : EReal :=
  if r.val = c.val then entry p t rm ic vw vc r else 0

/-- The diagonal matrix of the fused vector. -/
def diag (p t rm ic vw vc : (⟨1, ![12288]⟩ : Shape).Idx → EReal) : (⟨2, ![12288, 12288]⟩ : Shape).Idx → EReal :=
  fun j => diagAt p t rm ic vw vc ⟨(j 0).val, idx2_lt0 j⟩ ⟨(j 1).val, idx2_lt1 j⟩

/-- The matrix read at an index whose coordinates are `R` and `C`. -/
theorem diag_apply_of (p t rm ic vw vc : (⟨1, ![12288]⟩ : Shape).Idx → EReal) (j : (⟨2, ![12288, 12288]⟩ : Shape).Idx)
    (R C : Fin 12288) (hR : (j 0).val = R.val) (hC : (j 1).val = C.val) :
    diag p t rm ic vw vc j = diagAt p t rm ic vw vc R C := by
  unfold diag
  have eR : (⟨(j 0).val, idx2_lt0 j⟩ : Fin 12288) = R := Fin.ext hR
  have eC : (⟨(j 1).val, idx2_lt1 j⟩ : Fin 12288) = C := Fin.ext hC
  rw [eR, eC]

/-- Two iota words of coordinates below 2^32 compare equal exactly when the coordinates are equal. -/
theorem cmpi_eq_ofNat (a b : Nat) (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    rw [beq_eq_false_iff_ne.mpr hne]
    rfl

/-- A select on the comparison of two such iota words is the `if` on the coordinates. -/
theorem select_cmpi_eq_ofNat {α : Type} (a b : Nat) (ha : a < 4294967296) (hb : b < 4294967296) (A B : α) :
    Scalar.select (IntOp.cmpi .eq (BitVec.ofNat 32 a) (BitVec.ofNat 32 b)) A B = if a = b then A else B := by
  rw [cmpi_eq_ofNat a b ha hb]
  by_cases h : a = b
  · rw [if_pos h, if_pos h]; exact select_one A B
  · rw [if_neg h, if_neg h]; exact select_zero A B

end Cert.DiagSpec

end
-- ==== Proof.KernelPayload.lean ====
/-
  The kernel's two payloads read at an entry of the 2048 x 2048 tile, over the extended reals.

  The zero tile is zero everywhere. The diagonal tile's payload compares the row iota with the column iota, words of
  coordinates below 2^32, so it takes the fused vector laid along every row, at column c, exactly when r = c, and zero
  otherwise. The fused vector of the tile is (0 - p) * rm + ic + t * vw + vc on the six input blocks, and 0 - x = -x
  holds for every extended real.
-/
import proofs.«125487_j64776696758819_2_alg».proof.Proof.Gen.KernelIdeal.Skeleton
import proofs.«125487_j64776696758819_2_alg».proof.Proof.DiagSpec
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.DiagSpec
open Idealize.ShloMosaic Idealize.ShloMosaic.ValueIdx

/-- Entry `c` of the fused vector of one tile's six input blocks. -/
def blockEntry (v5 v8 v10 v12 v13 v16 : Vec Ideal S2048 .f32) (c : Fin 2048) : EReal :=
  -(v5 (ix1 c)) * v8 (ix1 c) + v10 (ix1 c) + v12 (ix1 c) * v13 (ix1 c) + v16 (ix1 c)

/-- The zero tile is zero at every entry. -/
theorem pay1_apply (j : S2048x2048.Idx) : (k0_pay1 (F := Ideal)) j = 0 := by
  show Ideal.ofBits .f32 0x00000000#32 = 0
  exact Ideal.ofBits_zero_f32

/-- A vector laid along every row of the tile and selected where the row and column iotas agree: at `(r, c)` it is the
    vector's entry `c` when `r = c`, and the splat value otherwise. -/
theorem diagSelect_apply (d : FVec Ideal S2048 .f32) (z : EReal) (r c : Fin 2048) :
    select (cmpi .eq (iota .tc S2048x2048 32 [0] iota_S2048x2048_d0_w32) (iota .tc S2048x2048 32 [1] iota_S2048x2048_d1_w32))
      (broadcastTo S2048x2048 (shapeCast S1x2048 (shapeCast S1x2048 d shapeCasts_S2048_S1x2048) shapeCasts_S1x2048_S1x2048)
        broadcasts_S1x2048_S2048x2048)
      (broadcast S2048x2048 z) (ix2 r c)
      = if r.val = c.val then d (ix1 c) else z := by
  rw [select_apply]
  show Scalar.select (IntOp.cmpi .eq (iota .tc S2048x2048 32 [0] iota_S2048x2048_d0_w32 (ix2 r c))
      (iota .tc S2048x2048 32 [1] iota_S2048x2048_d1_w32 (ix2 r c))) _ z = _
  rw [iota_single_apply, iota_single_apply]
  have hr : r.val < 4294967296 := by have := r.isLt; omega
  have hc : c.val < 4294967296 := by have := c.isLt; omega
  show Scalar.select (IntOp.cmpi .eq (BitVec.ofNat 32 r.val) (BitVec.ofNat 32 c.val)) _ z = _
  rw [select_cmpi_eq_ofNat _ _ hr hc, shapeCast_self, broadcastTo_1b_ab_apply, shapeCast_a_1a_apply]

/-- The diagonal tile's payload at `(r, c)`: the fused vector's entry `c` when `r = c`, zero otherwise. -/
theorem pay2_apply (v5 v8 v10 v12 v13 v16 : Vec Ideal S2048 .f32) (r c : Fin 2048) :
    k0_pay2 v5 v8 v10 v12 v13 v16 (ix2 r c) = if r.val = c.val then blockEntry v5 v8 v10 v12 v13 v16 c else 0 := by
  unfold k0_pay2
  refine (diagSelect_apply _ _ r c).trans ?_
  have hz : (Scalar.ofBits .f32 0x00000000#32 : Ideal .f32) = 0 := Ideal.ofBits_zero_f32
  have hd : addf (addf (addf (mulf (subf (broadcast S2048 (Scalar.ofBits .f32 0x00000000#32 : Ideal .f32)) v5) v8) v10) (mulf v12 v13)) v16 (ix1 c)
      = blockEntry v5 v8 v10 v12 v13 v16 c := by
    show (Ideal.ofBits .f32 0x00000000#32 - v5 (ix1 c)) * v8 (ix1 c) + v10 (ix1 c) + v12 (ix1 c) * v13 (ix1 c) + v16 (ix1 c) = _
    rw [Ideal.ofBits_zero_f32, zero_sub]
    rfl
  exact if_congr Iff.rfl hd hz

/-- A TILE ON THE DIAGONAL. If the six input blocks are the arrays' entries from `b * 2048` on, the diagonal tile's
    payload at `(r, c)` is the diagonal matrix of the arrays' fused vector at `(b * 2048 + r, b * 2048 + c)`. -/
theorem diagTile_apply (P T RM IC VW VC : (⟨1, ![12288]⟩ : Shape).Idx → EReal) (v5 v8 v10 v12 v13 v16 : Vec Ideal S2048 .f32)
    (b : Nat)
    (e5 : ∀ (cc : Fin 2048) (k : Fin 12288), k.val = b * 2048 + cc.val → v5 (ix1 cc) = P (ix1 k))
    (e8 : ∀ (cc : Fin 2048) (k : Fin 12288), k.val = b * 2048 + cc.val → v8 (ix1 cc) = RM (ix1 k))
    (e10 : ∀ (cc : Fin 2048) (k : Fin 12288), k.val = b * 2048 + cc.val → v10 (ix1 cc) = IC (ix1 k))
    (e12 : ∀ (cc : Fin 2048) (k : Fin 12288), k.val = b * 2048 + cc.val → v12 (ix1 cc) = T (ix1 k))
    (e13 : ∀ (cc : Fin 2048) (k : Fin 12288), k.val = b * 2048 + cc.val → v13 (ix1 cc) = VW (ix1 k))
    (e16 : ∀ (cc : Fin 2048) (k : Fin 12288), k.val = b * 2048 + cc.val → v16 (ix1 cc) = VC (ix1 k))
    (r cc : Fin 2048) (R C : Fin 12288) (hR : R.val = b * 2048 + r.val) (hC : C.val = b * 2048 + cc.val) :
    k0_pay2 v5 v8 v10 v12 v13 v16 (ix2 r cc) = diagAt P T RM IC VW VC R C := by
  rw [pay2_apply]
  unfold diagAt
  by_cases h : r.val = cc.val
  · have hRC : R = C := Fin.ext (by omega)
    subst hRC
    rw [if_pos h, if_pos rfl]
    unfold blockEntry entry
    rw [e5 cc R hC, e8 cc R hC, e10 cc R hC, e12 cc R hC, e13 cc R hC, e16 cc R hC]
  · rw [if_neg h, if_neg (by omega)]

/-- A TILE OFF THE DIAGONAL. The zero tile at `(r, c)` is the diagonal matrix at `(b0 * 2048 + r, b1 * 2048 + c)`
    whenever the tile's block row `b0` and block column `b1` differ: that entry is off the diagonal. -/
theorem zeroTile_apply (P T RM IC VW VC : (⟨1, ![12288]⟩ : Shape).Idx → EReal) (b0 b1 : Nat) (hb : b0 ≠ b1)
    (r cc : Fin 2048) (R C : Fin 12288) (hR : R.val = b0 * 2048 + r.val) (hC : C.val = b1 * 2048 + cc.val) :
    (k0_pay1 (F := Ideal)) (ix2 r cc) = diagAt P T RM IC VW VC R C := by
  rw [pay1_apply]
  unfold diagAt
  rw [if_neg]
  intro h
  apply hb
  have h1 := r.isLt
  have h2 := cc.isLt
  omega

end Cert.KernelIdeal.Payload

end
-- ==== Proof.KernelValue.lean ====
/-
  From tiles to the whole matrix: after the kernel's run its result array is the diagonal matrix of the fused vector.

  The grid is 6 x 6 in row-major order, so point t works on block row t / 6 and block column t % 6 of the result, and
  every input window hands it entries (t / 6) * 2048 onward of its vector. The points with t % 7 = 0 are exactly those
  with t / 6 = t % 6: there the tile written back is the select payload, which is the diagonal matrix restricted to that
  tile; at every other point the tile written back is the zero tile, which is again the diagonal matrix restricted to
  that tile because the tile lies off the diagonal. Every point writes its tile back and the 36 tiles cover the matrix,
  so the array ends at the diagonal matrix.
-/
import proofs.«125487_j64776696758819_2_alg».proof.Proof.Gen.KernelIdeal.Value
import proofs.«125487_j64776696758819_2_alg».proof.Proof.KernelPieces
import proofs.«125487_j64776696758819_2_alg».proof.Proof.KernelPayload
import proofs.«125487_j64776696758819_2_alg».proof.Proof.DiagSpec
import Idealize.ShloMosaic.Lib.Pipeline.Value

noncomputable section

namespace Cert.KernelIdeal.DiagValue

open Cert.KernelIdeal Cert.KernelIdeal.Gen Cert.KernelIdeal.Value Cert.KernelIdeal.Pieces Cert.KernelIdeal.Payload Cert.DiagSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 36 points: the result's block is (t / 6, t % 6) and every input's block is t / 6. -/
theorem idx_facts : ∀ t : Fin cfg0.N,
    win0_6.index t (0 : Fin 2) = t.val / 6 ∧ win0_6.index t (1 : Fin 2) = t.val % 6
    ∧ win0_0.index t (0 : Fin 1) = t.val / 6 ∧ win0_1.index t (0 : Fin 1) = t.val / 6
    ∧ win0_2.index t (0 : Fin 1) = t.val / 6 ∧ win0_3.index t (0 : Fin 1) = t.val / 6
    ∧ win0_4.index t (0 : Fin 1) = t.val / 6 ∧ win0_5.index t (0 : Fin 1) = t.val / 6 :=
  (by decide +kernel : ∀ t : Fin grid0.N, _)

/-- The result array's contents after the run: the diagonal matrix of the fused vector of the six argument arrays as
    the region finds them. -/
def result (c : Dev nD) : Buf (Elt Ideal) ((c : Thread nD τ).loc main_v0) :=
  diag (V m c main_arg0) (V m c main_arg1) (V m c main_arg2) (V m c main_arg3) (V m c main_arg4) (V m c main_arg5)

/-- Input block 0 at point `t`, entry `cc`: argument array 0 at `(t / 6) * 2048 + cc`. -/
theorem iblk0_apply (c : Dev nD) (t : Fin cfg0.N) (cc : Fin 2048) (k : Fin 12288) (hk : k.val = t.val / 6 * 2048 + cc.val) :
    iblk m c 0 t (ix1 cc) = V m c main_arg0 (ix1 k) := by
  obtain ⟨-, -, e0, e1, e2, e3, e4, e5⟩ := idx_facts t
  show V m c main_arg0 (((cfg0.win 0).blk t).view.emb (ix1 cc)) = V m c main_arg0 (ix1 k)
  refine congrArg (V m c main_arg0) (funext fun a => Fin.ext ?_)
  match a with
  | ⟨0, _⟩ =>
    show win0_0.index t (0 : Fin 1) * 2048 + 1 * cc.val = k.val
    rw [e0, hk]; omega

/-- Input block 1 at point `t`, entry `cc`: argument array 1 at `(t / 6) * 2048 + cc`. -/
theorem iblk1_apply (c : Dev nD) (t : Fin cfg0.N) (cc : Fin 2048) (k : Fin 12288) (hk : k.val = t.val / 6 * 2048 + cc.val) :
    iblk m c 1 t (ix1 cc) = V m c main_arg1 (ix1 k) := by
  obtain ⟨-, -, e0, e1, e2, e3, e4, e5⟩ := idx_facts t
  show V m c main_arg1 (((cfg0.win 1).blk t).view.emb (ix1 cc)) = V m c main_arg1 (ix1 k)
  refine congrArg (V m c main_arg1) (funext fun a => Fin.ext ?_)
  match a with
  | ⟨0, _⟩ =>
    show win0_1.index t (0 : Fin 1) * 2048 + 1 * cc.val = k.val
    rw [e1, hk]; omega

/-- Input block 2 at point `t`, entry `cc`: argument array 2 at `(t / 6) * 2048 + cc`. -/
theorem iblk2_apply (c : Dev nD) (t : Fin cfg0.N) (cc : Fin 2048) (k : Fin 12288) (hk : k.val = t.val / 6 * 2048 + cc.val) :
    iblk m c 2 t (ix1 cc) = V m c main_arg2 (ix1 k) := by
  obtain ⟨-, -, e0, e1, e2, e3, e4, e5⟩ := idx_facts t
  show V m c main_arg2 (((cfg0.win 2).blk t).view.emb (ix1 cc)) = V m c main_arg2 (ix1 k)
  refine congrArg (V m c main_arg2) (funext fun a => Fin.ext ?_)
  match a with
  | ⟨0, _⟩ =>
    show win0_2.index t (0 : Fin 1) * 2048 + 1 * cc.val = k.val
    rw [e2, hk]; omega

/-- Input block 3 at point `t`, entry `cc`: argument array 3 at `(t / 6) * 2048 + cc`. -/
theorem iblk3_apply (c : Dev nD) (t : Fin cfg0.N) (cc : Fin 2048) (k : Fin 12288) (hk : k.val = t.val / 6 * 2048 + cc.val) :
    iblk m c 3 t (ix1 cc) = V m c main_arg3 (ix1 k) := by
  obtain ⟨-, -, e0, e1, e2, e3, e4, e5⟩ := idx_facts t
  show V m c main_arg3 (((cfg0.win 3).blk t).view.emb (ix1 cc)) = V m c main_arg3 (ix1 k)
  refine congrArg (V m c main_arg3) (funext fun a => Fin.ext ?_)
  match a with
  | ⟨0, _⟩ =>
    show win0_3.index t (0 : Fin 1) * 2048 + 1 * cc.val = k.val
    rw [e3, hk]; omega

/-- Input block 4 at point `t`, entry `cc`: argument array 4 at `(t / 6) * 2048 + cc`. -/
theorem iblk4_apply (c : Dev nD) (t : Fin cfg0.N) (cc : Fin 2048) (k : Fin 12288) (hk : k.val = t.val / 6 * 2048 + cc.val) :
    iblk m c 4 t (ix1 cc) = V m c main_arg4 (ix1 k) := by
  obtain ⟨-, -, e0, e1, e2, e3, e4, e5⟩ := idx_facts t
  show V m c main_arg4 (((cfg0.win 4).blk t).view.emb (ix1 cc)) = V m c main_arg4 (ix1 k)
  refine congrArg (V m c main_arg4) (funext fun a => Fin.ext ?_)
  match a with
  | ⟨0, _⟩ =>
    show win0_4.index t (0 : Fin 1) * 2048 + 1 * cc.val = k.val
    rw [e4, hk]; omega

/-- Input block 5 at point `t`, entry `cc`: argument array 5 at `(t / 6) * 2048 + cc`. -/
theorem iblk5_apply (c : Dev nD) (t : Fin cfg0.N) (cc : Fin 2048) (k : Fin 12288) (hk : k.val = t.val / 6 * 2048 + cc.val) :
    iblk m c 5 t (ix1 cc) = V m c main_arg5 (ix1 k) := by
  obtain ⟨-, -, e0, e1, e2, e3, e4, e5⟩ := idx_facts t
  show V m c main_arg5 (((cfg0.win 5).blk t).view.emb (ix1 cc)) = V m c main_arg5 (ix1 k)
  refine congrArg (V m c main_arg5) (funext fun a => Fin.ext ?_)
  match a with
  | ⟨0, _⟩ =>
    show win0_5.index t (0 : Fin 1) * 2048 + 1 * cc.val = k.val
    rw [e5, hk]; omega

/-- WHAT POINT `t` WRITES BACK is its tile of the diagonal matrix. -/
theorem flushed_eq (c : Dev nD) (t : Fin cfg0.N) :
    (dats m 0 c).flushed 6 t = ((cfg0.win 6).blk t).view.read (Elt Ideal) (result m c) := by
  obtain ⟨i0, i1, -⟩ := idx_facts t
  have hN : t.val < 36 := lt_of_lt_of_eq t.isLt N_0
  by_cases h0 : t.val % 7 = 0
  · rw [flushed6_A m c t h0, out_A]
    funext j
    obtain ⟨r, cc, rfl⟩ : ∃ (r cc : Fin 2048), j = ix2 r cc := ⟨j 0, j 1, eq_ix2 j⟩
    have hr := r.isLt
    have hcc := cc.isLt
    show k0_pay2 (iblk m c 0 t) (iblk m c 2 t) (iblk m c 3 t) (iblk m c 1 t) (iblk m c 4 t) (iblk m c 5 t) (ix2 r cc)
      = result m c (((cfg0.win 6).blk t).view.emb (ix2 r cc))
    refine (diagTile_apply (V m c main_arg0) (V m c main_arg1) (V m c main_arg2) (V m c main_arg3) (V m c main_arg4)
      (V m c main_arg5) (iblk m c 0 t) (iblk m c 2 t) (iblk m c 3 t) (iblk m c 1 t) (iblk m c 4 t) (iblk m c 5 t) (t.val / 6)
      (fun cc k hk => iblk0_apply m c t cc k hk) (fun cc k hk => iblk2_apply m c t cc k hk)
      (fun cc k hk => iblk3_apply m c t cc k hk) (fun cc k hk => iblk1_apply m c t cc k hk)
      (fun cc k hk => iblk4_apply m c t cc k hk) (fun cc k hk => iblk5_apply m c t cc k hk)
      r cc ⟨t.val / 6 * 2048 + r.val, by omega⟩ ⟨t.val / 6 * 2048 + cc.val, by omega⟩ rfl rfl).trans ?_
    refine (diag_apply_of _ _ _ _ _ _ _ _ _ ?_ ?_).symm
    · show win0_6.index t (0 : Fin 2) * 2048 + 1 * r.val = t.val / 6 * 2048 + r.val
      rw [i0]; omega
    · show win0_6.index t (1 : Fin 2) * 2048 + 1 * cc.val = t.val / 6 * 2048 + cc.val
      rw [i1]; omega
  · rw [flushed6_B m c t h0, out_B]
    funext j
    obtain ⟨r, cc, rfl⟩ : ∃ (r cc : Fin 2048), j = ix2 r cc := ⟨j 0, j 1, eq_ix2 j⟩
    have hr := r.isLt
    have hcc := cc.isLt
    show (k0_pay1 (F := Ideal)) (ix2 r cc) = result m c (((cfg0.win 6).blk t).view.emb (ix2 r cc))
    refine (zeroTile_apply (V m c main_arg0) (V m c main_arg1) (V m c main_arg2) (V m c main_arg3) (V m c main_arg4)
      (V m c main_arg5) (t.val / 6) (t.val % 6) (by omega) r cc
      ⟨t.val / 6 * 2048 + r.val, by omega⟩ ⟨t.val % 6 * 2048 + cc.val, by omega⟩ rfl rfl).trans ?_
    refine (diag_apply_of _ _ _ _ _ _ _ _ _ ?_ ?_).symm
    · show win0_6.index t (0 : Fin 2) * 2048 + 1 * r.val = t.val / 6 * 2048 + r.val
      rw [i0]; omega
    · show win0_6.index t (1 : Fin 2) * 2048 + 1 * cc.val = t.val % 6 * 2048 + cc.val
      rw [i1]; omega

/-- An index of the matrix is in point `t`'s tile iff each coordinate is in the tile's range on its axis. -/
theorem mem_blk (t : Fin cfg0.N) (i : S12288x12288.Idx) :
    i ∈ ((cfg0.win 6).blk t).view.set ↔ ∀ a : Fin 2, win0_6.index t a * S2048x2048.size a ≤ (i a).val ∧ (i a).val < win0_6.index t a * S2048x2048.size a + S2048x2048.size a := by
  show i ∈ ((View.whole main_v0).slice (win0_6.rect t)).set ↔ _
  rw [View.set_slice_whole, Rect.mem_set_unit]
  exact Iff.rfl

/-- Every entry of the matrix lies in the tile of the point at its block row and block column. -/
theorem cover (i : S12288x12288.Idx) :
    ∃ t : Fin cfg0.N, (cfg0.win 6).flush t = true ∧ i ∈ ((cfg0.win 6).blk t).view.set := by
  have hi0 : (i 0).val < 12288 := (i 0).isLt
  have hi1 : (i 1).val < 12288 := (i 1).isLt
  have hN : cfg0.N = 36 := N_0
  let t : Fin cfg0.N := ⟨(i 0).val / 2048 * 6 + (i 1).val / 2048, by rw [hN]; omega⟩
  have ht : t.val = (i 0).val / 2048 * 6 + (i 1).val / 2048 := rfl
  obtain ⟨i0, i1, -⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [i0, ht]; omega
  | ⟨1, _⟩ =>
    show win0_6.index t (1 : Fin 2) * 2048 ≤ (i 1).val ∧ (i 1).val < win0_6.index t (1 : Fin 2) * 2048 + 2048
    rw [i1, ht]; omega

/-- THE ARRAY after the run is the diagonal matrix. -/
theorem final (c : Dev nD) : (dats m 0 c).arrAt 6 cfg0.N = result m c :=
  (dats m 0 c).arrAt_eq_of_cover 6 (result m c) (fun t _ => flushed_eq m c t) cover

/-- The kernel's run, read: the result array at the diagonal matrix of the fused vector of the arguments' launch
    contents, the arguments unchanged. -/
theorem run : θ_run defs (onTc (τ := τ) (main (F := Ideal))) ⟨m, fun _ => 0, ρ⟩ fun r => ∀ c : Dev nD,
      r.2.mem ((c : Thread nD τ).loc main_v0)
        = diag (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.DiagValue

end
-- ==== Proof.LibTypedRef.lean ====
/-
  Typed buffer references: the transport between a value's type and its buffer's declared type.

  An operation of an outlined function reads and writes its buffers through a typed reference, which carries a proof
  that the buffer's declared type is the value's type and moves contents along it. The transport there and back is
  the identity, and a transported value equals any value it is heterogeneously equal to: both by substituting the
  type equation, with nothing computed.
-/
import Idealize.ShloMosaic.Lib.StableHlo

noncomputable section

namespace Idealize.ShloMosaic.StableHlo.TRef

variable {sig : RefSig} {Val : EltTy → Type} {T : BufTy}

/-- Contents moved to the buffer's declared type and back are the contents. -/
theorem ofBuf_toBuf (x : TRef sig T) (w : T.Contents Val) : x.ofBuf (x.toBuf w) = w := by
  obtain ⟨r, rfl, _, _⟩ := x
  rfl

/-- Buffer contents read at the value's type are any value they are heterogeneously equal to. -/
theorem ofBuf_eq_of_heq (x : TRef sig T) (v : x.ref.ty.Contents Val) (w : T.Contents Val) (h : HEq v w) :
    x.ofBuf v = w := by
  obtain ⟨r, rfl, _, _⟩ := x
  exact eq_of_heq h

/-- A value written at the buffer's declared type is any buffer contents it is heterogeneously equal to. -/
theorem toBuf_eq_of_heq (x : TRef sig T) (w : T.Contents Val) (v : x.ref.ty.Contents Val) (h : HEq w v) :
    x.toBuf w = v := by
  obtain ⟨r, rfl, _, _⟩ := x
  exact eq_of_heq h

end Idealize.ShloMosaic.StableHlo.TRef

end
-- ==== Proof.RefRun.lean ====
/-
  The reference as a straight line of nineteen host operations, and what its result buffer holds after them.

  The reference forms the vector d = (-params) * r_mask + ics_mask + triggers * vcsw_mask + vc_mask in six elementwise
  operations and lays it on the diagonal of a square matrix: two outlined functions, inlined at their calls, pad d by
  nothing, compare a row iota (plus the offset zero) with a column iota, broadcast d along the rows, and select between
  that broadcast and a zero splat. Run in order from the launch memory, the result buffer ends at the composition of
  those operations applied to the six argument arrays, and the arguments are left as they were.
-/
import proofs.«125487_j64776696758819_2_alg».proof.Proof.Gen.ReferenceIdeal
import proofs.«125487_j64776696758819_2_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The vector laid on the diagonal, as the reference computes it from the six argument vectors. -/
def dvec (p t rm ic vw vc : FVec F S12288 .f32) : FVec F S12288 .f32 :=
  addf (addf (addf (mulf (Host.negf p) rm) ic) (mulf t vw)) vc

/-- The square matrix the reference builds from a vector: the vector's entry of the row where the row and column
    iotas agree, the zero splat elsewhere. -/
def diagOf (d : FVec F S12288 .f32) : FVec F S12288x12288 .f32 :=
  select (cmpi .eq (addi (iotaInDim S12288x12288 32 0) (broadcastInDim S12288x12288 ![] bcast_S_S12288x12288 (constantI S_ 32 0#32)))
      (iotaInDim S12288x12288 32 1))
    (broadcastInDim S12288x12288 ![0, 1] bcast_S12288x1_S12288x12288_0_1
      (broadcastInDim S12288x1 ![0] bcast_S12288_S12288x1_0
        (pad S12288 ![0] ![0] ![0] d (constant (F := F) S_ .f32 0x00000000#32) pads_S12288_S12288_000 h_S_)))
    (broadcastInDim S12288x12288 ![] bcast_S_S12288x12288 (constant (F := F) S_ .f32 0x00000000#32))

/-- The reference's operations in order: six on vectors, ten of the diagonal's construction, three of the select. -/
abbrev ops : List (HloOp τ sig (Elt F)) :=
  [ unary main_arg0 main_v0 (Host.negf : (⟨S12288, .f32⟩ : BufTy).Contents (Elt F) → (⟨S12288, .f32⟩ : BufTy).Contents (Elt F)),
    binary main_v0 main_arg2 main_v1 (mulf : (⟨S12288, .f32⟩ : BufTy).Contents (Elt F) → (⟨S12288, .f32⟩ : BufTy).Contents (Elt F) → (⟨S12288, .f32⟩ : BufTy).Contents (Elt F)),
    binary main_v1 main_arg3 main_v2 (addf : (⟨S12288, .f32⟩ : BufTy).Contents (Elt F) → (⟨S12288, .f32⟩ : BufTy).Contents (Elt F) → (⟨S12288, .f32⟩ : BufTy).Contents (Elt F)),
    binary main_arg1 main_arg4 main_v3 (mulf : (⟨S12288, .f32⟩ : BufTy).Contents (Elt F) → (⟨S12288, .f32⟩ : BufTy).Contents (Elt F) → (⟨S12288, .f32⟩ : BufTy).Contents (Elt F)),
    binary main_v2 main_v3 main_v4 (addf : (⟨S12288, .f32⟩ : BufTy).Contents (Elt F) → (⟨S12288, .f32⟩ : BufTy).Contents (Elt F) → (⟨S12288, .f32⟩ : BufTy).Contents (Elt F)),
    binary main_v4 main_arg5 main_v5 (addf : (⟨S12288, .f32⟩ : BufTy).Contents (Elt F) → (⟨S12288, .f32⟩ : BufTy).Contents (Elt F) → (⟨S12288, .f32⟩ : BufTy).Contents (Elt F)),
    TRef.nullary main_call0.cst (constant S_ .f32 0x00000000#32),
    TRef.binary (.of main_v5) main_call0.cst main_call0.v0 (fun x v => pad S12288 ![0] ![0] ![0] x v pads_S12288_S12288_000 h_S_),
    TRef.nullary main_call0.v1 (iotaInDim S12288x12288 32 0),
    TRef.nullary main_call0.v2 (iotaInDim S12288x12288 32 1),
    TRef.nullary main_call0.c (constantI S_ 32 0#32),
    TRef.unary main_call0.c main_call0.v3 (broadcastInDim S12288x12288 ![] bcast_S_S12288x12288),
    TRef.binary main_call0.v1 main_call0.v3 main_call0.v4 addi,
    TRef.binary main_call0.v4 main_call0.v2 main_call0.v5 (cmpi .eq),
    TRef.unary main_call0.v0 main_call0.v6 (broadcastInDim S12288x1 ![0] bcast_S12288_S12288x1_0),
    TRef.nullary main_call0.cst_0 (constant S_ .f32 0x00000000#32),
    TRef.unary main_call0.v6 main_call0.call0.v0 (broadcastInDim S12288x12288 ![0, 1] bcast_S12288x1_S12288x12288_0_1),
    TRef.unary main_call0.cst_0 main_call0.call0.v1 (broadcastInDim S12288x12288 ![] bcast_S_S12288x12288),
    TRef.ternary main_call0.v5 main_call0.call0.v0 main_call0.call0.v1 main_call0.call0.v2 select ]

set_option maxRecDepth 1024 in
/-- The program is that straight line: the two outlined functions unfolded at their calls. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., binary_bufs_sub .., binary_bufs_sub .., binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub ..⟩

/-- After the nineteen operations the result buffer holds the diagonal matrix of the vector d of the argument
    buffers' contents. -/
theorem result_eq (V : Valuation τ sig (Elt F)) :
    after ops V (main_v6 : DevRef τ sig)
      = diagOf (dvec (V (main_arg0 : DevRef τ sig)) (V (main_arg1 : DevRef τ sig)) (V (main_arg2 : DevRef τ sig))
          (V (main_arg3 : DevRef τ sig)) (V (main_arg4 : DevRef τ sig)) (V (main_arg5 : DevRef τ sig))) := by
  after_results
  simp only [TRef.ofBuf_toBuf]
  refine TRef.toBuf_eq_of_heq _ _ _ (heq_of_eq ?_)
  rw [TRef.ofBuf_eq_of_heq (TRef.of main_v5 _ _ _) _ _ HEq.rfl]
  rfl

/-- On every device, from any memory with zero counters, every weakly fair execution of the reference terminates with the
    result buffer at the diagonal matrix of d of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = diagOf (dvec (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v6).trans (result_eq (launchContents m c)),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefRun

end
-- ==== Proof.RefValue.lean ====
/-
  The reference's result, index by index: the matrix it builds from the fused vector is that vector's diagonal matrix.

  At row R and column C the two iota words are R (the offset zero added) and C, both below 2^32, so the select takes the
  broadcast vector's entry exactly when R = C; that entry is the vector's entry at the row R (the broadcast runs along the
  rows, and the pad adds nothing); off the diagonal the select takes the zero splat.
-/
import proofs.«125487_j64776696758819_2_alg».proof.Proof.RefRun
import proofs.«125487_j64776696758819_2_alg».proof.Proof.DiagSpec
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Cert.DiagSpec
open Idealize.ShloMosaic Idealize.ShloMosaic.ValueIdx

/-- The reference's fused vector at entry `k`. -/
theorem dvec_apply (p t rm ic vw vc : FVec Ideal S12288 .f32) (k : Fin 12288) :
    dvec p t rm ic vw vc (ix1 k) = entry p t rm ic vw vc k := rfl

/-- The matrix the reference builds from a vector `d` has `d R` at `(R, R)` and zero elsewhere. -/
theorem diagOf_apply (d : FVec Ideal S12288 .f32) (R C : Fin 12288) :
    diagOf d (ix2 R C) = if R.val = C.val then d (ix1 R) else 0 := by
  unfold diagOf
  rw [select_apply]
  have hc : cmpi .eq (addi (iotaInDim S12288x12288 32 0)
        (broadcastInDim S12288x12288 ![] bcast_S_S12288x12288 (constantI S_ 32 0#32))) (iotaInDim S12288x12288 32 1) (ix2 R C)
      = IntOp.cmpi .eq (BitVec.ofNat 32 R.val) (BitVec.ofNat 32 C.val) := by
    show IntOp.cmpi .eq (IntOp.addi (BitVec.ofNat 32 R.val)
      (broadcastInDim S12288x12288 ![] bcast_S_S12288x12288 (constantI S_ 32 0#32) (ix2 R C))) (BitVec.ofNat 32 C.val) = _
    rw [broadcastInDim_scalar_apply]
    show IntOp.cmpi .eq (BitVec.ofNat 32 R.val + 0#32) _ = _
    rw [BitVec.add_zero]
  have hR : R.val < 4294967296 := by have := R.isLt; omega
  have hC : C.val < 4294967296 := by have := C.isLt; omega
  rw [hc, select_cmpi_eq_ofNat _ _ hR hC]
  have hA : broadcastInDim S12288x12288 ![0, 1] bcast_S12288x1_S12288x12288_0_1
        (broadcastInDim S12288x1 ![0] bcast_S12288_S12288x1_0
          (pad S12288 ![0] ![0] ![0] d (constant (F := Ideal) S_ .f32 0x00000000#32) pads_S12288_S12288_000 h_S_)) (ix2 R C)
      = d (ix1 R) := by
    rw [broadcastInDim_apply _ _ _ (ix2 R C) (ix2 R (0 : Fin 1)) (fun a => by
      match a with
      | ⟨0, _⟩ => rfl
      | ⟨1, _⟩ => rfl)]
    rw [broadcastInDim_apply _ _ _ (ix2 R (0 : Fin 1)) (ix1 R) (fun a => by
      match a with
      | ⟨0, _⟩ => rfl)]
    exact pad_apply_of_inside _ _ _ d _ _ _ (ix1 R) (ix1 R) (fun a => by
      match a with
      | ⟨0, _⟩ => show R.val = 0 + R.val * (0 + 1); omega)
  have hB : broadcastInDim S12288x12288 ![] bcast_S_S12288x12288 (constant (F := Ideal) S_ .f32 0x00000000#32) (ix2 R C) = 0 := by
    rw [broadcastInDim_scalar_apply]
    exact Ideal.ofBits_zero_f32
  rw [hA, hB]

/-- The reference's result is the diagonal matrix of the fused vector of its arguments. -/
theorem result_eq_diag (p t rm ic vw vc : FVec Ideal S12288 .f32) :
    diagOf (dvec p t rm ic vw vc) = diag p t rm ic vw vc := by
  funext j
  obtain ⟨R, C, rfl⟩ : ∃ (R C : Fin 12288), j = ix2 R C := ⟨j 0, j 1, eq_ix2 j⟩
  rw [diagOf_apply, dvec_apply]
  rfl

end Cert.ReferenceIdeal.RefValue

end
-- ==== Proof.lean ====
/-
  A diagonal matrix built tile by tile against the same matrix built by an iota comparison.

  Both programs form, from six vectors of 12288 entries, the fused vector d = (-params) * r_mask + ics_mask
  + triggers * vcsw_mask + vc_mask and the 12288 x 12288 matrix with d on the diagonal and zero elsewhere. The kernel
  writes the matrix as 36 tiles of 2048 x 2048: a zero tile everywhere, overwritten on the six diagonal tiles by a select
  between d's block laid along every row and zero where the tile's row and column iotas agree; it negates by 0 - x.
  The reference compares a row iota with a column iota over the whole matrix and selects between d broadcast along the
  rows and zero. Over the extended reals the two agree at every index: on the diagonal the row and the column coincide,
  so reading d at the column (the kernel) or at the row (the reference) is the same entry, 0 - x is -x, and off the
  diagonal both are zero. No finiteness of the inputs is used.

  The three frames: each program's arguments end unchanged (the reference's from its straight-line run). The kernel's
  idealization rewrote nothing, so that conjunct is trivial.
-/
import proofs.«125487_j64776696758819_2_alg».proof.Defs
import proofs.«125487_j64776696758819_2_alg».proof.Proof.Gen.Kernel
import proofs.«125487_j64776696758819_2_alg».proof.Proof.Gen.Kernel.Skeleton
import proofs.«125487_j64776696758819_2_alg».proof.Proof.Gen.Kernel.Launch
import proofs.«125487_j64776696758819_2_alg».proof.Proof.Gen.Kernel.Points
import proofs.«125487_j64776696758819_2_alg».proof.Proof.Gen.Kernel.Frame
import proofs.«125487_j64776696758819_2_alg».proof.Proof.Gen.KernelIdeal
import proofs.«125487_j64776696758819_2_alg».proof.Proof.Gen.KernelIdeal.Skeleton
import proofs.«125487_j64776696758819_2_alg».proof.Proof.Gen.KernelIdeal.Launch
import proofs.«125487_j64776696758819_2_alg».proof.Proof.Gen.KernelIdeal.Points
import proofs.«125487_j64776696758819_2_alg».proof.Proof.Gen.KernelIdeal.Frame
import proofs.«125487_j64776696758819_2_alg».proof.Proof.Gen.KernelIdeal.Value
import proofs.«125487_j64776696758819_2_alg».proof.Proof.Gen.ReferenceIdeal
import proofs.«125487_j64776696758819_2_alg».proof.Proof.Gen.Pre_finite_inputs
import proofs.«125487_j64776696758819_2_alg».proof.Proof.KernelValue
import proofs.«125487_j64776696758819_2_alg».proof.Proof.RefValue
import Idealize.ShloMosaic.Adequacy
import Idealize.ShloMosaic.Init

noncomputable section

namespace Cert.Proof

open Idealize.ShloMosaic Idealize.ShloMosaic.TcCoe Idealize.SL.Sem

/-- The kernel's arguments end unchanged. -/
theorem frame_k : Cert.frame_Kernel := fun m ρ _ => Cert.Kernel.Gen.frame m ρ

/-- The idealized kernel's arguments end unchanged. -/
theorem frame_ki : Cert.frame_KernelIdeal := fun m ρ _ => Cert.KernelIdeal.Gen.frame m ρ

/-- The reference's arguments end unchanged: its straight-line run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both results are the diagonal matrix of the fused vector of the (agreeing) arguments. -/
theorem algebraic : Cert.algebraic_KernelIdeal_ReferenceIdeal := by
  intro m ρ m' ρ' _ hagree
  refine ⟨fun c => Cert.DiagSpec.diag (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.DiagValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq_diag, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
